-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048 : Shape := ⟨2, ![8, 2048]⟩
abbrev S8x131072 : Shape := ⟨2, ![8, 131072]⟩
abbrev S8x2048x2048 : Shape := ⟨3, ![8, 2048, 2048]⟩
abbrev S65x64 : Shape := ⟨2, ![65, 64]⟩
abbrev S64 : Shape := ⟨1, ![64]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S8x131072 : S_.BroadcastsInDim S8x131072 (![] : Fin 0 → Fin S8x131072.rank)
  reducesTo_S8x131072_S_d0_1 : S8x131072.ReducesTo [0, 1] S_
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S65x64 : S_.BroadcastsInDim S65x64 (![] : Fin 0 → Fin S65x64.rank)
  reducesTo_S65x64_S_d0_1 : S65x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S65x64 1) : IVec S_ 1 :=
  let main_c_5 : IVec S_ 1 := constantI S_ 1 1#1
  let main_v17 : IVec S_ 1 := (fun x v => Host.reduce IntOp.andi x v reducesTo_S65x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S8x2048 .f32) (main_arg1 : FVec F S8x131072 .f32) (main_arg2 : FVec F S8x2048x2048 .f32) (main_arg3 : FVec F S65x64 .f32) (main_arg4 : FVec F S64 .f32) : IVec S_ 1 :=
  let main_v0 : FVec F S8x2048 .f32 := Host.absf main_arg0
  let main_cst : FVec F S_ .f32 := constant S_ .f32 0x7F800000#32
  let main_v1 : FVec F S8x2048 .f32 := broadcastInDim S8x2048 ![] bcast_S_S8x2048 main_cst
  let main_v2 : IVec S8x2048 1 := cmpf .olt main_v0 main_v1
  let main_c : IVec S_ 1 := constantI S_ 1 1#1
  let main_v3 : IVec S_ 1 := (fun x v => Host.reduce IntOp.andi x v reducesTo_S8x2048_S_d0_1 h_S_) main_v2 main_c
  let main_v4 : FVec F S8x131072 .f32 := Host.absf main_arg1
  let main_cst_0 : FVec F S_ .f32 := constant S_ .f32 0x7F800000#32
  let main_v5 : FVec F S8x131072 .f32 := broadcastInDim S8x131072 ![] bcast_S_S8x131072 main_cst_0
  let main_v6 : IVec S8x131072 1 := cmpf .olt main_v4 main_v5
  let main_c_1 : IVec S_ 1 := constantI S_ 1 1#1
  let main_v7 : IVec S_ 1 := (fun x v => Host.reduce IntOp.andi x v reducesTo_S8x131072_S_d0_1 h_S_) main_v6 main_c_1
  let main_v8 : IVec S_ 1 := andi main_v3 main_v7
  let main_v9 : FVec F S8x2048x2048 .f32 := Host.absf main_arg2
  let main_cst_2 : FVec F S_ .f32 := constant S_ .f32 0x7F800000#32
  let main_v10 : FVec F S8x2048x2048 .f32 := broadcastInDim S8x2048x2048 ![] bcast_S_S8x2048x2048 main_cst_2
  let main_v11 : IVec S8x2048x2048 1 := cmpf .olt main_v9 main_v10
  let main_c_3 : IVec S_ 1 := constantI S_ 1 1#1
  let main_v12 : IVec S_ 1 := (fun x v => Host.reduce IntOp.andi x v reducesTo_S8x2048x2048_S_d0_1_2 h_S_) main_v11 main_c_3
  let main_v13 : IVec S_ 1 := andi main_v8 main_v12
  let main_v14 : FVec F S65x64 .f32 := Host.absf main_arg3
  let main_cst_4 : FVec F S_ .f32 := constant S_ .f32 0x7F800000#32
  let main_v15 : FVec F S65x64 .f32 := broadcastInDim S65x64 ![] bcast_S_S65x64 main_cst_4
  let main_v16 : IVec S65x64 1 := cmpf .olt main_v14 main_v15
  fn_part1 (F := F) main_arg4 main_v13 main_v16
-- ==== Kernel.lean ====
abbrev S8x2048 : Shape := ⟨2, ![8, 2048]⟩
abbrev S8x131072 : Shape := ⟨2, ![8, 131072]⟩
abbrev S8x2048x2048 : Shape := ⟨3, ![8, 2048, 2048]⟩
abbrev S65x64 : Shape := ⟨2, ![65, 64]⟩
abbrev S64 : Shape := ⟨1, ![64]⟩
abbrev S8x2048x64 : Shape := ⟨3, ![8, 2048, 64]⟩
abbrev S8x2048x1 : Shape := ⟨3, ![8, 2048, 1]⟩
abbrev S8x2048x128 : Shape := ⟨3, ![8, 2048, 128]⟩
abbrev S1x2048x2048 : Shape := ⟨3, ![1, 2048, 2048]⟩
abbrev S1x2048x1 : Shape := ⟨3, ![1, 2048, 1]⟩
abbrev S1x2048x64 : Shape := ⟨3, ![1, 2048, 64]⟩
abbrev S1x2048x128 : Shape := ⟨3, ![1, 2048, 128]⟩
abbrev S2048x2048 : Shape := ⟨2, ![2048, 2048]⟩
abbrev S2048x1 : Shape := ⟨2, ![2048, 1]⟩
abbrev S2048x64 : Shape := ⟨2, ![2048, 64]⟩
abbrev S2048x65 : Shape := ⟨2, ![2048, 65]⟩
abbrev S2048x63 : Shape := ⟨2, ![2048, 63]⟩
abbrev S2048x128 : Shape := ⟨2, ![2048, 128]⟩
abbrev S2048 : Shape := ⟨1, ![2048]⟩
abbrev S8x2048x65 : Shape := ⟨3, ![8, 2048, 65]⟩
abbrev S65x8x2048 : Shape := ⟨3, ![65, 8, 2048]⟩
abbrev S16384x65 : Shape := ⟨2, ![16384, 65]⟩
abbrev S16384x64 : Shape := ⟨2, ![16384, 64]⟩
abbrev S1x64 : Shape := ⟨2, ![1, 64]⟩

abbrev nBuf : Space → Nat
  | .hbm => 16
  | .vmem => 8
  | .smem => 0
  | _ => 0

abbrev bufTy : (tb : Table) → Fin (tcTables nBuf tb) → BufTy
  | .hbm, ⟨0, _⟩ => ⟨S8x2048, .f32⟩
  | .hbm, ⟨1, _⟩ => ⟨S8x131072, .f32⟩
  | .hbm, ⟨2, _⟩ => ⟨S8x2048x2048, .f32⟩
  | .hbm, ⟨3, _⟩ => ⟨S65x64, .f32⟩
  | .hbm, ⟨4, _⟩ => ⟨S64, .f32⟩
  | .hbm, ⟨5, _⟩ => ⟨S8x2048x64, .f32⟩
  | .hbm, ⟨6, _⟩ => ⟨S8x2048x1, .f32⟩
  | .hbm, ⟨7, _⟩ => ⟨S8x2048x128, .f32⟩
  | .hbm, ⟨8, _⟩ => ⟨S8x2048x65, .f32⟩
  | .hbm, ⟨9, _⟩ => ⟨S65x8x2048, .f32⟩
  | .hbm, ⟨10, _⟩ => ⟨S16384x65, .f32⟩
  | .hbm, ⟨11, _⟩ => ⟨S16384x64, .f32⟩
  | .hbm, ⟨12, _⟩ => ⟨S1x64, .f32⟩
  | .hbm, ⟨13, _⟩ => ⟨S16384x64, .f32⟩
  | .hbm, ⟨14, _⟩ => ⟨S16384x64, .f32⟩
  | .hbm, ⟨15, _⟩ => ⟨S8x131072, .f32⟩
  | .local _ .vmem, ⟨0, _⟩ => ⟨S1x2048x2048, .f32⟩
  | .local _ .vmem, ⟨1, _⟩ => ⟨S1x2048x2048, .f32⟩
  | .local _ .vmem, ⟨2, _⟩ => ⟨S1x2048x1, .f32⟩
  | .local _ .vmem, ⟨3, _⟩ => ⟨S1x2048x1, .f32⟩
  | .local _ .vmem, ⟨4, _⟩ => ⟨S1x2048x64, .f32⟩
  | .local _ .vmem, ⟨5, _⟩ => ⟨S1x2048x64, .f32⟩
  | .local _ .vmem, ⟨6, _⟩ => ⟨S1x2048x128, .f32⟩
  | .local _ .vmem, ⟨7, _⟩ => ⟨S1x2048x128, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8x131072_S8x2048x64 : S8x131072.ShapeCasts S8x2048x64
  bcast_S8x2048_S8x2048x1_0_1 : S8x2048.BroadcastsInDim S8x2048x1 (![0, 1] : Fin 2 → Fin S8x2048x1.rank)
  inb_S1x2048x2048_S1x2048x2048_0_0_0 : ∀ a, (![0, 0, 0] : Fin 3 → Nat) a + S1x2048x2048.size a ≤ S1x2048x2048.size a
  h_S1x2048x2048 : 0 < S1x2048x2048.numel
  shapeCasts_S1x2048x2048_S2048x2048 : S1x2048x2048.ShapeCasts S2048x2048
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  concatenates_S2048x1_S2048x64_S2048x65_d1 : Shape.Concatenates [S2048x1, S2048x64] S2048x65 1
  concatenates_S2048x65_S2048x63_S2048x128_d1 : Shape.Concatenates [S2048x65, S2048x63] S2048x128 1
  reduces_S2048x2048_S2048 : S2048x2048.Reduces [1] S2048
  shapeCasts_S2048_S2048x1 : S2048.ShapeCasts S2048x1
  broadcasts_S2048x1_S2048x128 : S2048x1.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  slices_S8x2048x128_S8x2048x65_0_0_0 : S8x2048x128.Slices ![0, 0, 0] S8x2048x65
  transposes_S8x2048x65_S65x8x2048_2_0_1 : S8x2048x65.Transposes [2, 0, 1] S65x8x2048
  shapeCasts_S65x8x2048_S16384x65 : S65x8x2048.ShapeCasts S16384x65
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S8x131072 : S16384x64.ShapeCasts S8x131072
  dot_S2048x2048_S2048x128_S2048x128_1_0_0_1_n_n_wf : DotDims.WF S2048x2048 S2048x128 S2048x128 [1] [0] [0] [1] [] []
  dot_S16384x65_S65x64_S16384x64_1_0_0_1_n_n_wf : DotDims.WF S16384x65 S65x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x2048.size a ≤ S8x2048x2048.size a
  hwx0_0 : ∀ i : grid0.Coords, EltTy.bits .f32 = 32 ∨ (Rect.block (s := S8x2048x2048) S1x2048x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1.size a ≤ S8x2048x1.size a
  hwx0_1 : ∀ i : grid0.Coords, EltTy.bits .f32 = 32 ∨ (Rect.block (s := S8x2048x1) S1x2048x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S8x2048x128.size a
  hwx0_3 : ∀ i : grid0.Coords, EltTy.bits .f32 = 32 ∨ (Rect.block (s := S8x2048x128) S1x2048x128.size (cc0_transform_3 i) (hinb0_3 i)).WholeWords (EltTy.packing .f32)

variable [Facts₀]

def dot_S2048x2048_S2048x128_S2048x128_1_0_0_1_n_n : DotDims S2048x2048 S2048x128 S2048x128 where
  lhsContracting := [1]
  rhsContracting := [0]
  lhsNonContracting := [0]
  rhsNonContracting := [1]
  lhsBatch := []
  rhsBatch := []
  wf := dot_S2048x2048_S2048x128_S2048x128_1_0_0_1_n_n_wf
def dot_S16384x65_S65x64_S16384x64_1_0_0_1_n_n : DotDims S16384x65 S65x64 S16384x64 where
  lhsContracting := [1]
  rhsContracting := [0]
  lhsNonContracting := [0]
  rhsNonContracting := [1]
  lhsBatch := []
  rhsBatch := []
  wf := dot_S16384x65_S65x64_S16384x64_1_0_0_1_n_n_wf

abbrev win0_0 : Pipeline.Window sig grid0 :=
  Pipeline.Window.ofSpec (Memref.whole main_arg2) S1x2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048 : Shape := ⟨2, ![8, 2048]⟩
abbrev S8x131072 : Shape := ⟨2, ![8, 131072]⟩
abbrev S8x2048x2048 : Shape := ⟨3, ![8, 2048, 2048]⟩
abbrev S65x64 : Shape := ⟨2, ![65, 64]⟩
abbrev S64 : Shape := ⟨1, ![64]⟩
abbrev S2048x2048 : Shape := ⟨2, ![2048, 2048]⟩
abbrev S_ : Shape := ⟨0, ![]⟩
abbrev S1x2048x2048 : Shape := ⟨3, ![1, 2048, 2048]⟩
abbrev S8x1x2048 : Shape := ⟨3, ![8, 1, 2048]⟩
abbrev S8x2048x1 : Shape := ⟨3, ![8, 2048, 1]⟩
abbrev S8x2048x64 : Shape := ⟨3, ![8, 2048, 64]⟩
abbrev S8x2048x65 : Shape := ⟨3, ![8, 2048, 65]⟩
abbrev S65x8x2048 : Shape := ⟨3, ![65, 8, 2048]⟩
abbrev S16384x65 : Shape := ⟨2, ![16384, 65]⟩
abbrev S16384x64 : Shape := ⟨2, ![16384, 64]⟩
abbrev S1x64 : Shape := ⟨2, ![1, 64]⟩

abbrev nBuf : Space → Nat
  | .hbm => 43
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x131072, .f32⟩
  | .hbm, ⟨2, _⟩ => ⟨S8x2048x2048, .f32⟩
  | .hbm, ⟨3, _⟩ => ⟨S65x64, .f32⟩
  | .hbm, ⟨4, _⟩ => ⟨S64, .f32⟩
  | .hbm, ⟨5, _⟩ => ⟨S2048x2048, .i32⟩
  | .hbm, ⟨6, _⟩ => ⟨S2048x2048, .i32⟩
  | .hbm, ⟨7, _⟩ => ⟨S_, .i32⟩
  | .hbm, ⟨8, _⟩ => ⟨S2048x2048, .i32⟩
  | .hbm, ⟨9, _⟩ => ⟨S2048x2048, .i32⟩
  | .hbm, ⟨10, _⟩ => ⟨S2048x2048, .i1⟩
  | .hbm, ⟨11, _⟩ => ⟨S2048x2048, .f32⟩
  | .hbm, ⟨12, _⟩ => ⟨S1x2048x2048, .f32⟩
  | .hbm, ⟨13, _⟩ => ⟨S8x2048x2048, .f32⟩
  | .hbm, ⟨14, _⟩ => ⟨S8x2048x2048, .f32⟩
  | .hbm, ⟨15, _⟩ => ⟨S_, .f32⟩
  | .hbm, ⟨16, _⟩ => ⟨S8x2048, .f32⟩
  | .hbm, ⟨17, _⟩ => ⟨S_, .f32⟩
  | .hbm, ⟨18, _⟩ => ⟨S8x2048, .f32⟩
  | .hbm, ⟨19, _⟩ => ⟨S8x2048, .f32⟩
  | .hbm, ⟨20, _⟩ => ⟨S8x2048, .f32⟩
  | .hbm, ⟨21, _⟩ => ⟨S_, .f32⟩
  | .hbm, ⟨22, _⟩ => ⟨S8x2048, .f32⟩
  | .hbm, ⟨23, _⟩ => ⟨S8x2048, .i1⟩
  | .hbm, ⟨24, _⟩ => ⟨S_, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S8x1x2048, .f32⟩
  | .hbm, ⟨30, _⟩ => ⟨S8x2048x2048, .f32⟩
  | .hbm, ⟨31, _⟩ => ⟨S8x2048x2048, .f32⟩
  | .hbm, ⟨32, _⟩ => ⟨S8x2048x1, .f32⟩
  | .hbm, ⟨33, _⟩ => ⟨S8x2048x64, .f32⟩
  | .hbm, ⟨34, _⟩ => ⟨S8x2048x65, .f32⟩
  | .hbm, ⟨35, _⟩ => ⟨S8x2048x65, .f32⟩
  | .hbm, ⟨36, _⟩ => ⟨S65x8x2048, .f32⟩
  | .hbm, ⟨37, _⟩ => ⟨S16384x65, .f32⟩
  | .hbm, ⟨38, _⟩ => ⟨S16384x64, .f32⟩
  | .hbm, ⟨39, _⟩ => ⟨S1x64, .f32⟩
  | .hbm, ⟨40, _⟩ => ⟨S16384x64, .f32⟩
  | .hbm, ⟨41, _⟩ => ⟨S16384x64, .f32⟩
  | .hbm, ⟨42, _⟩ => ⟨S8x131072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_v12 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S8x2048x2048_0_1_2 : S1x2048x2048.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x1x2048_0_2 : S8x2048.BroadcastsInDim S8x1x2048 (![0, 2] : Fin 2 → Fin S8x1x2048.rank)
  bcast_S8x1x2048_S8x2048x2048_0_1_2 : S8x1x2048.BroadcastsInDim S8x2048x2048 (![0, 1, 2] : Fin 3 → Fin S8x2048x2048.rank)
  bcast_S8x2048_S8x2048x1_0_1 : S8x2048.BroadcastsInDim S8x2048x1 (![0, 1] : Fin 2 → Fin S8x2048x1.rank)
  shapeCasts_S8x131072_S8x2048x64 : S8x131072.ShapeCasts S8x2048x64
  concatenates_S8x2048x1_S8x2048x64_S8x2048x65_d2 : Shape.Concatenates [S8x2048x1, S8x2048x64] S8x2048x65 2
  transposes_S8x2048x65_S65x8x2048_2_0_1 : S8x2048x65.Transposes [2, 0, 1] S65x8x2048
  shapeCasts_S65x8x2048_S16384x65 : S65x8x2048.ShapeCasts S16384x65
  bcast_S64_S1x64_1 : S64.BroadcastsInDim S1x64 (![1] : Fin 1 → Fin S1x64.rank)
  bcast_S1x64_S16384x64_0_1 : S1x64.BroadcastsInDim S16384x64 (![0, 1] : Fin 2 → Fin S16384x64.rank)
  shapeCasts_S16384x64_S8x131072 : S16384x64.ShapeCasts S8x131072
  dot_S8x2048x2048_S8x2048x65_S8x2048x65_2_1_1_2_0_0_wf : DotDims.WF S8x2048x2048 S8x2048x65 S8x2048x65 [2] [1] [1] [2] [0] [0]
  dot_S16384x65_S65x64_S16384x64_1_0_0_1_n_n_wf : DotDims.WF S16384x65 S65x64 S16384x64 [1] [0] [0] [1] [] []

variable [Facts₀]

def dot_S8x2048x2048_S8x2048x65_S8x2048x65_2_1_1_2_0_0 : DotDims S8x2048x2048 S8x2048x65 S8x2048x65 where
  lhsContracting := [2]
  rhsContracting := [1]
  lhsNonContracting := [1]
  rhsNonContracting := [2]
  lhsBatch := [0]
  rhsBatch := [0]
  wf := dot_S8x2048x2048_S8x2048x65_S8x2048x65_2_1_1_2_0_0_wf
def dot_S16384x65_S65x64_S16384x64_1_0_0_1_n_n : DotDims S16384x65 S65x64 S16384x64 where
  lhsContracting := [1]
  rhsContracting := [0]
  lhsNonContracting := [0]
  rhsNonContracting := [1]
  lhsBatch := []
  rhsBatch := []
  wf := dot_S16384x65_S65x64_S16384x64_1_0_0_1_n_n_wf

class Facts : Prop extends Facts₀ where

variable [Facts]
-- ==== Proof.LibColumnLayouts.lean ====
/-
  Casts and broadcasts through a TRAILING unit axis, read at an index written by coordinates.

  A reduction that keeps its dimension, or a per-row scalar spread along a row, goes through shapes with a unit axis
  at the END: `[a] → [a, 1] → [a, b]` and `[a, b] → [a, b, 1] → [a, b, c]`. Each lemma below says which entry of the
  operand a cast or broadcast of that family reads, for any extents; the last one is a `[1, 1, c]` row spread over
  both leading axes. All are instances of the library's general reading of a shape cast (same row-major position)
  and of a broadcast (the operand at the trailing coordinates, `0` on its unit axes).
-/
import Idealize.ShloMosaic.Lib.Pipeline.Value
import Idealize.ShloMosaic.Lib.ValueIdx

noncomputable section

namespace Cert.ColumnLayouts

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(p, s, k)`, the operand at `(p, s, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (s : Fin b) (k : Fin c) :
    broadcastTo ⟨3, ![a, b, c]⟩ v h (ix3 p s k) = v (ix3 p s (0 : Fin 1)) := by
  refine broadcastTo_apply v h (ix3 p s k) (ix3 p s (0 : Fin 1)) fun ax => ?_
  match ax with
  | ⟨0, _⟩ =>
    show p.val = if a = 1 then 0 else p.val
    split
    · have := p.isLt; omega
    · rfl
  | ⟨1, _⟩ =>
    show s.val = if b = 1 then 0 else s.val
    split
    · have := s.isLt; omega
    · rfl
  | ⟨2, _⟩ => rfl

/-- A `[1, 1, c]` row broadcast to `[a, b, c]` reads, at `(p, s, k)`, the row's entry `k`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (s : Fin b) (k : Fin c) :
    broadcastTo ⟨3, ![a, b, c]⟩ v h (ix3 p s k) = v (ix3 (0 : Fin 1) (0 : Fin 1) k) := by
  refine broadcastTo_apply v h (ix3 p s k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.ColumnLayouts

end
-- ==== Proof.LibRowSums.lean ====
/-
  A sum along the rows of a matrix, read at a row.

  A kernel that reduces a `[a, b]` block along its second axis (a per-row sum: the numerator of a row mean, of a row
  variance, of a row norm) gets an `[a]` vector whose entry `p` is the sum over `k` of the block at `(p, k)`. The lemma
  says so for any extents, with the indices written by coordinates, for a single-precision sum started from the zero
  word.
-/
import Idealize.ShloMosaic.PureOps.Ideal.Laws
import Idealize.ShloMosaic.Lib.ValueIdx

noncomputable section

open scoped BigOperators

namespace Cert.RowSums

open Idealize.ShloMosaic Idealize.ShloMosaic.ValueIdx

/-- An `[a, b]` array of single-precision values summed along its second axis into `[a]`, starting from the zero word,
    reads at `p` the sum over `k : Fin b` of the array at `(p, k)`. The hypothesis on the start word is typed as a printed
    program spells its proof (the word equal to itself). -/
theorem multiReduction_add_rows_apply {a b : ℕ} (v : FVec Ideal ⟨2, ![a, b]⟩ .f32)
    (h : (⟨2, ![a, b]⟩ : Shape).Reduces [1] ⟨1, ![a]⟩) (hφ : FKind.Formats .f32)
    (hacc : (0x00000000#32 : BitVec 32) = 0x00000000#32) (p : Fin a) :
    multiReduction .add [1] ⟨1, ![a]⟩ v 0x00000000#32 h hφ hacc (ix1 p) = ∑ k : Fin b, v (ix2 p k) := by
  refine (Ideal.multiReduction_add_single v 0x00000000#32 h hφ hacc (ix1 p)).trans ?_
  exact Finset.sum_congr rfl fun k _ => congrArg v (funext fun c => Fin.ext (by
    match c with
    | ⟨0, _⟩ => rfl
    | ⟨1, _⟩ => rfl))

end Cert.RowSums

end
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.ScaleLaw.lean ====
/-
  The column scale of the normalised adjacency, and the sum identity that joins the two ways of propagating.

  For a row of the adjacency matrix with entries `a k`, write `s = Σ_k a k + 1` for its degree with the self loop.
  One program scales column `j` by `d j * d j` where `d = s ^ (-1/2)` (put to zero where that power is infinite);
  the other scales it by `1 / s` where `s > 0` and by zero elsewhere. On a real degree these are one number,
  `scale s`: for `s > 0` the square of `s ^ (-1/2)` is `s⁻¹`; at `s = 0` the real power `0 ^ (-1/2)` is `0`; for
  `s < 0` the real power is `exp (-(log |s|) / 2) * cos (-π / 2) = 0`.

  The propagation itself: with `w j` the scale of column `j`, `c j` a feature column and `δ` the identity matrix,
  `Σ_j ((a j + δ i j) * w j) * c j = Σ_j a j * (c j * w j) + c i * w i` — distributivity and the sum of a
  Kronecker delta, which hold for real numbers.
-/
import Idealize.ShloMosaic.PureOps.Ideal
import Idealize.ShloMosaic.PureOps.Ideal.Laws
import Idealize.ShloMosaic.Lib.ValueIdx
import proofs.«108917_j52604759441743_2_alg».proof.Proof.LibFiniteReals

noncomputable section

open scoped BigOperators

namespace Cert.ScaleLaw

open Idealize.ShloMosaic Cert.FiniteReals

/-! ## The three literals -/

theorem ofBits_one : Ideal.ofBits .f32 0x3F800000#32 = ((1 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

theorem ofBits_top : Ideal.ofBits .f32 0x7F800000#32 = (⊤ : EReal) := by
  simp [Ideal.ofBits, Ideal.ieee]

/-! ## The scale of a real degree -/

/-- The reciprocal of a positive degree, zero for any other. -/
def scale (s : ℝ) : ℝ := if 0 < s then s⁻¹ else 0

/-- The square of the real power `s ^ (-1/2)` is `scale s`, whatever the sign of `s`. -/
theorem rpow_neg_half_sq (s : ℝ) : Real.rpow s (-(1 / 2)) * Real.rpow s (-(1 / 2)) = scale s := by
  simp only [Real.rpow_eq_pow]
  unfold scale
  rcases lt_trichotomy s 0 with h | h | h
  · rw [if_neg (not_lt.mpr h.le), Real.rpow_def_of_neg h]
    have hc : Real.cos (-(1 / 2) * Real.pi) = 0 := by
      rw [show -(1 / 2) * Real.pi = -(Real.pi / 2) by ring, Real.cos_neg, Real.cos_pi_div_two]
    rw [hc]; ring
  · subst h
    rw [if_neg (lt_irrefl 0), Real.zero_rpow (by norm_num)]; ring
  · rw [if_pos h, ← Real.rpow_add h, show (-(1 / 2) + -(1 / 2) : ℝ) = -1 by ring, Real.rpow_neg_one]

/-- The kernel's scale: `1 / s` where `s > 0`, else `0`. -/
def kscale (s : EReal) : EReal := Scalar.select (Ideal.cmp .ogt s 0) (Ideal.div 1 s) 0

theorem kscale_coe (s : ℝ) : kscale (s : EReal) = ((scale s : ℝ) : EReal) := by
  unfold kscale scale
  by_cases h : 0 < s
  · have hc : Ideal.cmp .ogt (s : EReal) 0 = 1#1 := by
      have : (0 : EReal) < (s : EReal) := EReal.coe_pos.mpr h
      simp [Ideal.cmp, this]
    rw [hc, ValueIdx.select_one, if_pos h, ← EReal.coe_one, div_coe_coe 1 h.ne', one_div]
  · have hc : Ideal.cmp .ogt (s : EReal) 0 = 0#1 := by
      have : ¬ (0 : EReal) < (s : EReal) := fun h' => h (EReal.coe_pos.mp h')
      simp [Ideal.cmp, this]
    rw [hc, ValueIdx.select_zero, if_neg h, EReal.coe_zero]

/-- The reference's guard: an infinite value is put to zero. -/
def guard (p : EReal) : EReal :=
  Scalar.select (Ideal.cmp .oeq (max p (-p)) (Ideal.ofBits .f32 0x7F800000#32)) (Ideal.ofBits .f32 0x00000000#32) p

theorem guard_coe (r : ℝ) : guard (r : EReal) = (r : EReal) := by
  unfold guard
  have hne : max (r : EReal) (-(r : EReal)) ≠ Ideal.ofBits .f32 0x7F800000#32 := by
    rw [ofBits_top]
    rcases max_cases (r : EReal) (-(r : EReal)) with ⟨h, _⟩ | ⟨h, _⟩ <;> rw [h]
    · exact EReal.coe_ne_top r
    · rw [← EReal.coe_neg]; exact EReal.coe_ne_top _
  have hc : Ideal.cmp .oeq (max (r : EReal) (-(r : EReal))) (Ideal.ofBits .f32 0x7F800000#32) = 0#1 := by
    simp [Ideal.cmp, hne]
  rw [hc, ValueIdx.select_zero]

/-- The reference's scale: the guarded power `s ^ (-1/2)`, squared. -/
def rscale (s : EReal) : EReal :=
  guard (Ideal.pow s (Ideal.ofBits .f32 0xBF000000#32)) * guard (Ideal.pow s (Ideal.ofBits .f32 0xBF000000#32))

theorem rscale_coe (s : ℝ) : rscale (s : EReal) = ((scale s : ℝ) : EReal) := by
  unfold rscale
  rw [ofBits_neg_half, Ideal.pow_coe_coe, guard_coe, ← EReal.coe_mul, rpow_neg_half_sq]

/-! ## The propagation, over the reals -/

/-- A row of `a + δ` sums to the row of `a` plus one. -/
theorem real_degree {J : Type*} [Fintype J] [DecidableEq J] (a : J → ℝ) (i : J) :
    ∑ k, (a k + (if i = k then (1 : ℝ) else 0)) = (∑ k, a k) + 1 := by
  rw [Finset.sum_add_distrib, Finset.sum_ite_eq, if_pos (Finset.mem_univ i)]

/-- Scaling the columns of `a + δ` and contracting with `c` is contracting `a` with the scaled `c` and adding the
    scaled entry of row `i`. -/
theorem real_propagate {J : Type*} [Fintype J] [DecidableEq J] (a c w : J → ℝ) (i : J) :
    ∑ j, ((a j + (if i = j then (1 : ℝ) else 0)) * w j) * c j = (∑ j, a j * (c j * w j)) + c i * w i := by
  have h : ∀ j, ((a j + (if i = j then (1 : ℝ) else 0)) * w j) * c j
      = a j * (c j * w j) + (if i = j then c j * w j else 0) := by
    intro j; split_ifs <;> ring
  simp only [h, Finset.sum_add_distrib, Finset.sum_ite_eq, Finset.mem_univ, if_true]

end Cert.ScaleLaw

end
-- ==== Proof.Spec.lean ====
/-
  What both programs compute before their common last steps, entry by entry, and why it is one function.

  For batch `b` let `A` be the adjacency matrix, `s j = Σ_l A j l + 1` the degree of node `j` with its self loop and
  `x j` the feature row of node `j`: the node's input, then its 64 hidden units (then zeros, where a row is padded to
  128 lanes). One program forms the matrix `(A + I)` with column `k` scaled by `(s k ^ (-1/2))²` — the power put to
  zero where it is infinite — and multiplies it with the features (`laplacianApplied`). The other scales the feature
  rows by `1 / s j` where `s j > 0` (by zero elsewhere), multiplies with `A` and adds the scaled row itself
  (`propagated`). On real entries the two scales are one real number and the rest is distributivity.
-/
import Idealize.ShloMosaic.PureOps.Ideal
import Idealize.ShloMosaic.Lib.ValueIdx
import proofs.«108917_j52604759441743_2_alg».proof.Proof.ScaleLaw

noncomputable section

open scoped BigOperators

namespace Cert.Spec

open Idealize.ShloMosaic Idealize.ShloMosaic.ValueIdx Cert.ScaleLaw Cert.FiniteReals

variable {nb : ℕ}

/-- The feature row of node `j` of batch `b`, padded with zeros to 128 lanes: lane 0 is the node's input, lanes
    1 … 64 its hidden units. -/
def feat (P : (⟨3, ![nb, 2048, 1]⟩ : Shape).Idx → EReal) (H : (⟨3, ![nb, 2048, 64]⟩ : Shape).Idx → EReal)
    (b : Fin nb) (j : Fin 2048) (f : Fin 128) : EReal :=
  if f.val = 0 then P (ix3 b j (0 : Fin 1))
  else if h : f.val < 65 then H (ix3 b j (⟨f.val - 1, by omega⟩ : Fin 64)) else 0

/-- The degree of node `j` with its self loop. -/
def degree (A : (⟨3, ![nb, 2048, 2048]⟩ : Shape).Idx → EReal) (b : Fin nb) (j : Fin 2048) : EReal :=
  (∑ l : Fin 2048, A (ix3 b j l)) + 1

/-- Scale the feature rows, multiply with the adjacency, add the scaled row itself. -/
def propagated (A : (⟨3, ![nb, 2048, 2048]⟩ : Shape).Idx → EReal) (P : (⟨3, ![nb, 2048, 1]⟩ : Shape).Idx → EReal)
    (H : (⟨3, ![nb, 2048, 64]⟩ : Shape).Idx → EReal) (b : Fin nb) (i : Fin 2048) (f : Fin 128) : EReal :=
  (∑ j : Fin 2048, A (ix3 b i j) * (feat P H b j f * kscale (degree A b j))) + feat P H b i f * kscale (degree A b i)

/-- The identity matrix. -/
def delta (i k : Fin 2048) : EReal := ((if i = k then (1 : ℝ) else 0 : ℝ) : EReal)

/-- Scale the columns of `A + I`, multiply with the features. -/
def laplacianApplied (A : (⟨3, ![nb, 2048, 2048]⟩ : Shape).Idx → EReal) (P : (⟨3, ![nb, 2048, 1]⟩ : Shape).Idx → EReal)
    (H : (⟨3, ![nb, 2048, 64]⟩ : Shape).Idx → EReal) (b : Fin nb) (i : Fin 2048) (f : Fin 128) : EReal :=
  ∑ k : Fin 2048, ((A (ix3 b i k) + delta i k) * rscale (0 + ∑ l : Fin 2048, (A (ix3 b k l) + delta k l))) * feat P H b k f

theorem isReal_feat (P : (⟨3, ![nb, 2048, 1]⟩ : Shape).Idx → EReal) (H : (⟨3, ![nb, 2048, 64]⟩ : Shape).Idx → EReal)
    (hP : ∀ i, IsReal (P i)) (hH : ∀ i, IsReal (H i)) (b : Fin nb) (j : Fin 2048) (f : Fin 128) : IsReal (feat P H b j f) := by
  unfold feat
  split_ifs
  · exact hP _
  · exact hH _
  · exact isReal_zero

/-- On real entries the two are one function. -/
theorem laplacianApplied_eq_propagated (A : (⟨3, ![nb, 2048, 2048]⟩ : Shape).Idx → EReal)
    (P : (⟨3, ![nb, 2048, 1]⟩ : Shape).Idx → EReal) (H : (⟨3, ![nb, 2048, 64]⟩ : Shape).Idx → EReal)
    (hA : ∀ i, IsReal (A i)) (hP : ∀ i, IsReal (P i)) (hH : ∀ i, IsReal (H i)) (b : Fin nb) (i : Fin 2048) (f : Fin 128) :
    laplacianApplied A P H b i f = propagated A P H b i f := by
  choose a ha using hA
  obtain rfl : A = fun i => ((a i : ℝ) : EReal) := funext ha
  choose c hc using fun j => isReal_feat P H hP hH b j f
  unfold laplacianApplied propagated degree delta
  simp only [hc]
  have hdeg : ∀ k : Fin 2048, (0 : EReal) + ∑ l : Fin 2048, (((a (ix3 b k l) : ℝ) : EReal) + ((if k = l then (1 : ℝ) else 0 : ℝ) : EReal))
      = (((∑ l : Fin 2048, a (ix3 b k l)) + 1 : ℝ) : EReal) := by
    intro k
    simp only [← EReal.coe_add, coe_sum, zero_add]
    rw [real_degree]
  have hdeg' : ∀ j : Fin 2048, (∑ l : Fin 2048, ((a (ix3 b j l) : ℝ) : EReal)) + 1
      = (((∑ l : Fin 2048, a (ix3 b j l)) + 1 : ℝ) : EReal) := by
    intro j
    rw [coe_sum, ← EReal.coe_one, ← EReal.coe_add]
  simp only [hdeg, hdeg', rscale_coe, kscale_coe]
  simp only [← EReal.coe_add, ← EReal.coe_mul, coe_sum]
  exact congrArg Real.toEReal (real_propagate (fun k => a (ix3 b i k)) c (fun k => scale ((∑ l : Fin 2048, a (ix3 b k l)) + 1)) i)

end Cert.Spec

end
-- ==== Proof.KernelRead.lean ====
/-
  The kernel body's stored tile, read at an entry.

  At one grid point the body holds one batch: the adjacency matrix `x0` as `[1, 2048, 2048]`, the node inputs `x1` as
  `[1, 2048, 1]` and the hidden units `x2` as `[1, 2048, 64]`. It joins inputs and hidden units into feature rows and pads
  them with zeros to 128 lanes; sums each row of the matrix and adds one (the degree with the self loop); takes
  `1 / degree` where the degree is positive and zero elsewhere; scales the feature rows by it; multiplies the matrix
  with the scaled rows and adds the scaled rows. Entry `(i, f)` of what it stores is therefore the specification's
  `propagated` for a single batch.
-/
import proofs.«108917_j52604759441743_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«108917_j52604759441743_2_alg».proof.Proof.LibColumnLayouts
import proofs.«108917_j52604759441743_2_alg».proof.Proof.LibRowSums
import proofs.«108917_j52604759441743_2_alg».proof.Proof.Spec

noncomputable section

open scoped BigOperators

namespace Cert.KernelRead

open Cert.KernelIdeal Cert.KernelIdeal.Gen Idealize.ShloMosaic Idealize.ShloMosaic.ValueIdx
open Cert.Spec Cert.ScaleLaw Cert.ColumnLayouts Cert.RowSums

/-! ## The body's intermediate values, named -/

/-- The degree column: each row of the matrix summed, plus one. -/
def degCol (v1 : FVec Ideal S2048x2048 .f32) : FVec Ideal S2048x1 .f32 :=
  addf (shapeCast S2048x1 (multiReduction .add [1] S2048 v1 0x00000000#32 reduces_S2048x2048_S2048 (.inl rfl) rfl) shapeCasts_S2048_S2048x1)
    (broadcast S2048x1 (Scalar.ofBits (F := Ideal) .f32 0x3F800000#32))

/-- The scale column: the reciprocal of a positive degree, zero elsewhere. -/
def invCol (v1 : FVec Ideal S2048x2048 .f32) : FVec Ideal S2048x1 .f32 :=
  select (cmpf .ogt (degCol v1) (broadcast S2048x1 (Scalar.ofBits (F := Ideal) .f32 0x00000000#32)))
    (divf (broadcast S2048x1 (Scalar.ofBits (F := Ideal) .f32 0x3F800000#32)) (degCol v1))
    (broadcast S2048x1 (Scalar.ofBits (F := Ideal) .f32 0x00000000#32))

/-- The feature rows: input, hidden units, zeros up to 128 lanes. -/
def featTile (x1 : Vec Ideal S1x2048x1 .f32) (x2 : Vec Ideal S1x2048x64 .f32) : FVec Ideal S2048x128 .f32 :=
  concatenate S2048x128 1
    [⟨S2048x65, concatenate S2048x65 1 [⟨S2048x1, shapeCast S2048x1 x1 shapeCasts_S1x2048x1_S2048x1⟩,
        ⟨S2048x64, shapeCast S2048x64 x2 shapeCasts_S1x2048x64_S2048x64⟩] concatenates_S2048x1_S2048x64_S2048x65_d1⟩,
      ⟨S2048x63, broadcast S2048x63 (Scalar.ofBits (F := Ideal) .f32 0x00000000#32)⟩]
    concatenates_S2048x65_S2048x63_S2048x128_d1

/-- The feature rows scaled by the scale column. -/
def scaledTile (x0 : Vec Ideal S1x2048x2048 .f32) (x1 : Vec Ideal S1x2048x1 .f32) (x2 : Vec Ideal S1x2048x64 .f32) :
    FVec Ideal S2048x128 .f32 :=
  mulf (featTile x1 x2)
    (broadcastTo S2048x128 (invCol (shapeCast S2048x2048 x0 shapeCasts_S1x2048x2048_S2048x2048)) broadcasts_S2048x1_S2048x128)

/-- The stored tile is the matrix times the scaled rows, plus the scaled rows. -/
theorem payload_eq (x0 : Vec Ideal S1x2048x2048 .f32) (x1 : Vec Ideal S1x2048x1 .f32) (x2 : Vec Ideal S1x2048x64 .f32) :
    k0_pay1 (F := Ideal) x0 x1 x2
      = shapeCast S1x2048x128
          (addf (matmul (φ₁ := .f32) (φ₂ := .f32) dot_S2048x2048_S2048x128_S2048x128_1_0_0_1_n_n (some .fp32)
              (shapeCast S2048x2048 x0 shapeCasts_S1x2048x2048_S2048x2048) (scaledTile x0 x1 x2)
              (constant S2048x128 .f32 0x00000000#32)) (scaledTile x0 x1 x2))
          shapeCasts_S2048x128_S1x2048x128 := rfl

/-! ## Each of them at an entry -/

theorem degCol_apply (v1 : FVec Ideal S2048x2048 .f32) (k : Fin 2048) (u : Fin 1) :
    degCol v1 (ix2 k u) = (∑ l : Fin 2048, v1 (ix2 k l)) + 1 := by
  unfold degCol
  rw [addf_apply, broadcast_apply, shapeCast_a_a1_apply, multiReduction_add_rows_apply]
  show _ + Ideal.ofBits .f32 0x3F800000#32 = _
  rw [ofBits_one, EReal.coe_one]

theorem invCol_apply (v1 : FVec Ideal S2048x2048 .f32) (k : Fin 2048) (u : Fin 1) :
    invCol v1 (ix2 k u) = kscale ((∑ l : Fin 2048, v1 (ix2 k l)) + 1) := by
  unfold invCol
  rw [select_apply, cmpf_apply, divf_apply, broadcast_apply, broadcast_apply, degCol_apply]
  show Scalar.select (Ideal.cmp .ogt _ (Ideal.ofBits .f32 0x00000000#32)) (Ideal.div (Ideal.ofBits .f32 0x3F800000#32) _)
    (Ideal.ofBits .f32 0x00000000#32) = _
  rw [Ideal.ofBits_zero_f32, ofBits_one, EReal.coe_one]
  rfl

theorem featTile_apply (x1 : Vec Ideal S1x2048x1 .f32) (x2 : Vec Ideal S1x2048x64 .f32) (k : Fin 2048) (f : Fin 128) :
    featTile x1 x2 (ix2 k f) = feat (nb := 1) x1 x2 0 k f := by
  unfold featTile feat
  have hf128 : f.val < 128 := f.isLt
  by_cases hf : f.val < 65
  · rw [concatenate_pair_apply_left (1 : Fin S2048x128.rank) _ _ concatenates_S2048x65_S2048x63_S2048x128_d1 (ix2 k f) rfl
      (ix2 k (⟨f.val, hf⟩ : Fin 65)) (fun a => by
        match a with
        | ⟨0, _⟩ => rfl
        | ⟨1, _⟩ => rfl)]
    by_cases h0 : f.val = 0
    · rw [if_pos h0, concatenate_pair_apply_left (1 : Fin S2048x65.rank) _ _ concatenates_S2048x1_S2048x64_S2048x65_d1
        (ix2 k (⟨f.val, hf⟩ : Fin 65)) rfl (ix2 k (0 : Fin 1)) (fun a => by
          match a with
          | ⟨0, _⟩ => rfl
          | ⟨1, _⟩ => show (0 : ℕ) = f.val; omega)]
      exact shapeCast_1ab_ab_apply x1 _ k (0 : Fin 1)
    · rw [if_neg h0, dif_pos hf, concatenate_pair_apply_right (1 : Fin S2048x65.rank) _ _ concatenates_S2048x1_S2048x64_S2048x65_d1
        (ix2 k (⟨f.val, hf⟩ : Fin 65)) rfl rfl (ix2 k (⟨f.val - 1, by omega⟩ : Fin 64)) (fun a hne => by
          match a with
          | ⟨0, _⟩ => rfl
          | ⟨1, _⟩ => exact absurd rfl hne)
        (by show (f.val - 1) + 1 = f.val; omega)]
      exact shapeCast_1ab_ab_apply x2 _ k _
  · have h0 : ¬ f.val = 0 := by omega
    rw [if_neg h0, dif_neg hf, concatenate_pair_apply_right (1 : Fin S2048x128.rank) _ _ concatenates_S2048x65_S2048x63_S2048x128_d1
      (ix2 k f) rfl rfl (ix2 k (⟨f.val - 65, by omega⟩ : Fin 63)) (fun a hne => by
        match a with
        | ⟨0, _⟩ => rfl
        | ⟨1, _⟩ => exact absurd rfl hne)
      (by show (f.val - 65) + 65 = f.val; omega)]
    exact Ideal.ofBits_zero_f32

theorem scaledTile_apply (x0 : Vec Ideal S1x2048x2048 .f32) (x1 : Vec Ideal S1x2048x1 .f32) (x2 : Vec Ideal S1x2048x64 .f32)
    (k : Fin 2048) (f : Fin 128) :
    scaledTile x0 x1 x2 (ix2 k f) = feat (nb := 1) x1 x2 0 k f * kscale (degree (nb := 1) x0 0 k) := by
  unfold scaledTile degree
  rw [mulf_apply, featTile_apply, broadcastTo_a1_ab_apply, invCol_apply]
  refine congrArg (fun s => _ * kscale (s + 1)) (Finset.sum_congr rfl fun l _ => ?_)
  exact shapeCast_1ab_ab_apply x0 _ k l

/-- The stored tile at an entry: the propagation of a single batch. -/
theorem payload_apply (x0 : Vec Ideal S1x2048x2048 .f32) (x1 : Vec Ideal S1x2048x1 .f32) (x2 : Vec Ideal S1x2048x64 .f32)
    (u : Fin 1) (i : Fin 2048) (f : Fin 128) :
    k0_pay1 (F := Ideal) x0 x1 x2 (ix3 u i f) = propagated (nb := 1) x0 x1 x2 0 i f := by
  rw [payload_eq, shapeCast_ab_1ab_apply, addf_apply, scaledTile_apply]
  unfold propagated
  refine congrArg (· + _) ?_
  simp only [matmul]
  rw [Ideal.matmul_constant_zero_apply,
    ← Equiv.sum_comp (contrEquiv1 dot_S2048x2048_S2048x128_S2048x128_1_0_0_1_n_n 2048 rfl rfl).symm]
  refine Finset.sum_congr rfl fun k _ => ?_
  have hk := contrEquiv1_symm_val dot_S2048x2048_S2048x128_S2048x128_1_0_0_1_n_n 2048 rfl rfl k
  have el : dot_S2048x2048_S2048x128_S2048x128_1_0_0_1_n_n.lhsIdx (ix2 i f)
      ((contrEquiv1 dot_S2048x2048_S2048x128_S2048x128_1_0_0_1_n_n 2048 rfl rfl).symm k) = ix2 i k :=
    funext fun a => Fin.ext (by
      match a with
      | ⟨0, _⟩ => rfl
      | ⟨1, _⟩ => exact (dot_S2048x2048_S2048x128_S2048x128_1_0_0_1_n_n.lhsIdx_val_of_single rfl _ _).trans hk)
  have er : dot_S2048x2048_S2048x128_S2048x128_1_0_0_1_n_n.rhsIdx (ix2 i f)
      ((contrEquiv1 dot_S2048x2048_S2048x128_S2048x128_1_0_0_1_n_n 2048 rfl rfl).symm k) = ix2 k f :=
    funext fun a => Fin.ext (by
      match a with
      | ⟨0, _⟩ => exact (dot_S2048x2048_S2048x128_S2048x128_1_0_0_1_n_n.rhsIdx_val_of_single rfl _ _).trans hk
      | ⟨1, _⟩ => rfl)
  rw [el, er, scaledTile_apply]
  exact congrArg (· * _) (shapeCast_1ab_ab_apply x0 _ i k)

end Cert.KernelRead

end
-- ==== Proof.KernelArray.lean ====
/-
  The kernel's output array after the run.

  The grid has one point per batch. At point `t` each window's block is batch `t` of its array — the adjacency
  `[8, 2048, 2048]`, the node inputs as a column `[8, 2048, 1]`, the hidden units `[8, 2048, 64]` and the output
  `[8, 2048, 128]` — so what point `t` writes back is batch `t` of one whole-array function: entry `(b, i, f)` is the
  specification's `propagated` of the three arrays at batch `b`. The eight blocks tile the output array, which
  therefore ends holding that function. The column of node inputs and the `[8, 2048, 64]` view of the hidden state are
  written by the two operations before the call.
-/
import proofs.«108917_j52604759441743_2_alg».proof.Proof.Gen.KernelIdeal.Frame
import proofs.«108917_j52604759441743_2_alg».proof.Proof.KernelRead
import Idealize.ShloMosaic.Lib.Pipeline.Value
import Idealize.ShloMosaic.Lib.StableHlo.Run

set_option maxRecDepth 16384

noncomputable section

open scoped BigOperators

namespace Cert.KernelArray

open Cert.KernelIdeal Cert.KernelIdeal.Gen Idealize.ShloMosaic Idealize.ShloMosaic.TcCoe Idealize.ShloMosaic.ValueIdx
open Idealize.SL.Sem Idealize.ShloMosaic.StableHlo
open Cert.Spec Cert.ScaleLaw Cert.KernelRead

variable (m : (ℓ : Loc nD τ sig) → Buf (Elt Ideal) ℓ)

/-- The output array as one function of the adjacency `A`, the input column `P` and the hidden units `H`. -/
def outArray (A : S8x2048x2048.Idx → EReal) (P : S8x2048x1.Idx → EReal) (H : S8x2048x64.Idx → EReal) : S8x2048x128.Idx → EReal :=
  fun e => propagated (nb := 8) A P H (e 0) (e 1) (e 2)

theorem zero_offsets : (![0, 0, 0] : Fin 3 → Nat) = fun _ => 0 := funext fun a => by fin_cases a <;> rfl

/-- The printed index maps, decided over the grid: every window's block index is the output window's, which is
    `(batch, 0, 0)` with the batch below 8. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) < 8 ∧ win0_3.index t (1 : Fin 3) = 0 ∧ win0_3.index t (2 : Fin 3) = 0 :=
  (by decide +kernel : ∀ t : Fin grid0.N, _)

/-- Every batch is some point's. -/
theorem idx_onto : ∀ q : Fin 8, ∃ t : Fin cfg0.N, win0_3.index t = ![q.val, 0, 0] :=
  (by decide +kernel : ∀ q : Fin 8, ∃ t : Fin grid0.N, win0_3.index t = ![q.val, 0, 0])

/-- One batch: blocks that are batch `q` of the three arrays give, through the body, batch `q` of `outArray`. -/
theorem block_eq (A : S8x2048x2048.Idx → EReal) (P : S8x2048x1.Idx → EReal) (H : S8x2048x64.Idx → EReal)
    (x0 : Vec Ideal S1x2048x2048 .f32) (x1 : Vec Ideal S1x2048x1 .f32) (x2 : Vec Ideal S1x2048x64 .f32) (q : Fin 8)
    (h0 : ∀ (j l : Fin 2048), x0 (ix3 (0 : Fin 1) j l) = A (ix3 q j l))
    (h1 : ∀ (j : Fin 2048), x1 (ix3 (0 : Fin 1) j (0 : Fin 1)) = P (ix3 q j (0 : Fin 1)))
    (h2 : ∀ (j : Fin 2048) (g : Fin 64), x2 (ix3 (0 : Fin 1) j g) = H (ix3 q j g))
    (u : Fin 1) (i : Fin 2048) (f : Fin 128) (e : S8x2048x128.Idx)
    (he0 : (e 0).val = q.val) (he1 : (e 1).val = i.val) (he2 : (e 2).val = f.val) :
    k0_pay1 (F := Ideal) x0 x1 x2 (ix3 u i f) = outArray A P H e := by
  rw [payload_apply]
  obtain rfl : e = ix3 q i f := funext fun a => Fin.ext (by
    match a with
    | ⟨0, _⟩ => exact he0
    | ⟨1, _⟩ => exact he1
    | ⟨2, _⟩ => exact he2)
  show propagated (nb := 1) x0 x1 x2 0 i f = propagated (nb := 8) A P H q i f
  unfold propagated degree feat
  simp only [h0, h1, h2]

/-- What point `t` writes back is block `t` of `outArray` of the arrays as the region finds them. -/
theorem flushed_eq (c : Dev nD) (t : Fin cfg0.N) :
    (dats m 0 c).flushed 3 t
      = ((cfg0.win 3).blk t).view.read (Elt Ideal) (outArray (V m c main_arg2) (V m c main_v1) (V m c main_v0)) := by
  show (cfg0.win 3).cut (grid0.coords t) ((dats m 0 c).after 3 t) = _
  rw [after0_3]
  unfold out0_3
  rw [View.canon_unit_zero zero_offsets]
  simp only [View.ld_unit_zero (S := S1x2048x2048) zero_offsets, View.ld_unit_zero (S := S1x2048x1) zero_offsets,
    View.ld_unit_zero (S := S1x2048x64) zero_offsets]
  obtain ⟨a0, a1, a2, b0, b1, b2, c0, c1, c2, d0, d1, d2⟩ := idx_facts t
  funext y
  obtain ⟨u, i, f, rfl⟩ : ∃ (u : Fin 1) (i : Fin 2048) (f : Fin 128), y = ix3 u i f := ⟨y 0, y 1, y 2, eq_ix3 y⟩
  have hu : u.val = 0 := by omega
  show k0_pay1 (F := Ideal) (iblk m c 0 t) (iblk m c 1 t) (iblk m c 2 t) (ix3 u i f)
    = outArray (V m c main_arg2) (V m c main_v1) (V m c main_v0) (((cfg0.win 3).blk t).view.emb (ix3 u i f))
  refine block_eq _ _ _ _ _ _ (⟨win0_3.index t (0 : Fin 3), d0⟩ : Fin 8) ?_ ?_ ?_ u i f _ ?_ ?_ ?_
  · intro j l
    show V m c main_arg2 (((cfg0.win 0).blk t).view.emb (ix3 (0 : Fin 1) j l)) = V m c main_arg2 _
    refine congrArg _ (funext fun a => Fin.ext ?_)
    match a with
    | ⟨0, _⟩ => show win0_0.index t (0 : Fin 3) * 1 + 1 * 0 = win0_3.index t (0 : Fin 3); omega
    | ⟨1, _⟩ => show win0_0.index t (1 : Fin 3) * 2048 + 1 * j.val = j.val; omega
    | ⟨2, _⟩ => show win0_0.index t (2 : Fin 3) * 2048 + 1 * l.val = l.val; omega
  · intro j
    show V m c main_v1 (((cfg0.win 1).blk t).view.emb (ix3 (0 : Fin 1) j (0 : Fin 1))) = V m c main_v1 _
    refine congrArg _ (funext fun a => Fin.ext ?_)
    match a with
    | ⟨0, _⟩ => show win0_1.index t (0 : Fin 3) * 1 + 1 * 0 = win0_3.index t (0 : Fin 3); omega
    | ⟨1, _⟩ => show win0_1.index t (1 : Fin 3) * 2048 + 1 * j.val = j.val; omega
    | ⟨2, _⟩ => show win0_1.index t (2 : Fin 3) * 1 + 1 * 0 = 0; omega
  · intro j g
    show V m c main_v0 (((cfg0.win 2).blk t).view.emb (ix3 (0 : Fin 1) j g)) = V m c main_v0 _
    refine congrArg _ (funext fun a => Fin.ext ?_)
    match a with
    | ⟨0, _⟩ => show win0_2.index t (0 : Fin 3) * 1 + 1 * 0 = win0_3.index t (0 : Fin 3); omega
    | ⟨1, _⟩ => show win0_2.index t (1 : Fin 3) * 2048 + 1 * j.val = j.val; omega
    | ⟨2, _⟩ => show win0_2.index t (2 : Fin 3) * 64 + 1 * g.val = g.val; omega
  · show win0_3.index t (0 : Fin 3) * 1 + 1 * u.val = win0_3.index t (0 : Fin 3); omega
  · show win0_3.index t (1 : Fin 3) * 2048 + 1 * i.val = i.val; omega
  · show win0_3.index t (2 : Fin 3) * 128 + 1 * f.val = f.val; omega

/-- An index of the output array is in point `t`'s block iff each coordinate is in the block's range on its axis. -/
theorem mem_blk (t : Fin cfg0.N) (i : S8x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v2).slice (win0_3.rect t)).set ↔ _
  rw [View.set_slice_whole, Rect.mem_set_unit]
  exact Iff.rfl

/-- The eight blocks tile the output array. -/
theorem cover (i : S8x2048x128.Idx) :
    ∃ t : Fin cfg0.N, (cfg0.win 3).flush t = true ∧ i ∈ ((cfg0.win 3).blk t).view.set := by
  have hi0 : (i 0).val < 8 := (i 0).isLt
  have hi1 : (i 1).val < 2048 := (i 1).isLt
  have hi2 : (i 2).val < 128 := (i 2).isLt
  obtain ⟨t, ht⟩ := idx_onto ⟨(i 0).val, hi0⟩
  have q0 : win0_3.index t (0 : Fin 3) = (i 0).val := congrFun ht 0
  have q1 : win0_3.index t (1 : Fin 3) = 0 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-- The output array after the run: `outArray` of the three arrays. -/
theorem final (c : Dev nD) :
    (dats m 0 c).arrAt 3 cfg0.N = outArray (V m c main_arg2) (V m c main_v1) (V m c main_v0) :=
  (dats m 0 c).arrAt_eq_of_cover 3 _ (fun t _ => flushed_eq m c t) cover

/-! ## The two arrays written before the call -/

/-- The node inputs as a column. -/
theorem V_inputs (c : Dev nD) :
    (V m c main_v1 : S8x2048x1.Idx → EReal)
      = broadcastInDim S8x2048x1 ![0, 1] bcast_S8x2048_S8x2048x1_0_1 (m ((c : Thread nD τ).loc main_arg0)) := by
  show StableHlo.after hostOps0 (fun b => m (c, b)) (Proc.devRef .tc main_v1) = _
  after_results
  all_goals rfl

/-- The hidden state, one row of 64 units per node. -/
theorem V_hidden (c : Dev nD) :
    (V m c main_v0 : S8x2048x64.Idx → EReal)
      = shapeCast S8x2048x64 (m ((c : Thread nD τ).loc main_arg1)) shapeCasts_S8x131072_S8x2048x64 := by
  show StableHlo.after hostOps0 (fun b => m (c, b)) (Proc.devRef .tc main_v0) = _
  after_results
  all_goals rfl

end Cert.KernelArray

end
-- ==== Proof.RefRead.lean ====
/-
  The reference's propagation step, read at an entry.

  Before its last steps the reference holds, at batch `b`, node `i` and feature lane `f`, the contraction over nodes `k`
  of the normalised matrix `(A + I)` — column `k` scaled by the guarded `(degree ^ (-1/2))²` — with the features: the
  specification's `laplacianApplied`. Each generated reading of one operation is followed to the next; what is added
  here is the identity matrix as a comparison of two iotas, the two broadcasts of the column scale, and the joined
  feature rows read lane by lane.
-/
import proofs.«108917_j52604759441743_2_alg».proof.Proof.Gen.ReferenceIdeal.Read
import proofs.«108917_j52604759441743_2_alg».proof.Proof.Spec

noncomputable section

open scoped BigOperators

namespace Cert.RefRead

open Cert.ReferenceIdeal Cert.ReferenceIdeal.Gen Cert.ReferenceIdeal.Read Idealize.ShloMosaic Idealize.ShloMosaic.ValueIdx
open Cert.Spec Cert.ScaleLaw

/-- The comparison of the row iota with the column iota, as a float: the identity matrix. -/
theorem eye_word (i k : Fin 2048) :
    FloatOps.uitofp (F := Ideal) .f32 (IntOp.cmpi .eq (IntOp.addi (BitVec.ofNat 32 i.val) 0#32) (BitVec.ofNat 32 k.val))
      = delta i k := by
  have hi : i.val < 2 ^ 32 := lt_trans i.isLt (by norm_num)
  have hk : k.val < 2 ^ 32 := lt_trans k.isLt (by norm_num)
  have hw : IntOp.cmpi .eq (IntOp.addi (BitVec.ofNat 32 i.val) 0#32) (BitVec.ofNat 32 k.val) = if i = k then 1#1 else 0#1 := by
    unfold IntOp.cmpi IntOp.addi
    rw [BitVec.add_zero]
    by_cases h : i = k
    · subst h; simp
    · rw [if_neg h]
      have hne : ¬ BitVec.ofNat 32 i.val = BitVec.ofNat 32 k.val := by
        intro e
        have e' := congrArg BitVec.toNat e
        simp only [BitVec.toNat_ofNat, Nat.mod_eq_of_lt hi, Nat.mod_eq_of_lt hk] at e'
        exact h (Fin.ext e')
      rw [show (BitVec.ofNat 32 i.val == BitVec.ofNat 32 k.val) = false from beq_eq_false_iff_ne.mpr hne]
      rfl
  rw [hw]
  unfold delta
  show (((if i = k then 1#1 else 0#1 : BitVec 1).toNat : ℝ) : EReal) = _
  split_ifs <;> simp

theorem eye_apply (b : Fin 8) (i k : Fin 2048) : val_main_v7 (F := Ideal) (ix3 b i k) = delta i k := by
  rw [val_main_v7_apply, val_main_v6_apply, val_main_v5_apply, val_main_v4_apply, val_main_v3_apply, val_main_v0_apply,
    val_main_v2_apply, val_main_c_apply, val_main_v1_apply]
  exact eye_word i k

/-- `A + I` at an entry. -/
theorem adjI_apply (x2 : (⟨S8x2048x2048, .f32⟩ : BufTy).Contents (Elt Ideal)) (b : Fin 8) (i k : Fin 2048) :
    val_main_v8 (F := Ideal) x2 (ix3 b i k) = x2 (ix3 b i k) + delta i k := by
  rw [val_main_v8_apply, eye_apply]; rfl

/-- The degree with the self loop, as the reference sums it. -/
theorem degree_apply (x2 : (⟨S8x2048x2048, .f32⟩ : BufTy).Contents (Elt Ideal)) (b : Fin 8) (k : Fin 2048) :
    val_main_v9 (F := Ideal) x2 (ix2 b k) = 0 + ∑ l : Fin 2048, (x2 (ix3 b k l) + delta k l) := by
  rw [val_main_v9_apply, val_main_cst_apply]
  show Ideal.ofBits .f32 0x00000000#32 + _ = _
  rw [Ideal.ofBits_zero_f32]
  refine congrArg (0 + ·) (Finset.sum_congr rfl fun l _ => ?_)
  have e : idx_main_v9 (ix2 b k) l = ix3 b k l :=
    funext fun a => Fin.ext (by match a with | ⟨0, _⟩ => rfl | ⟨1, _⟩ => rfl | ⟨2, _⟩ => rfl)
  rw [e, adjI_apply]

/-- The guarded power of the degree, squared. -/
theorem scale_apply (x2 : (⟨S8x2048x2048, .f32⟩ : BufTy).Contents (Elt Ideal)) (b : Fin 8) (k : Fin 2048) :
    val_main_v14 (F := Ideal) x2 (ix2 b k) = rscale (val_main_v9 (F := Ideal) x2 (ix2 b k)) := by
  rw [val_main_v14_apply, val_main_v13_apply, val_main_v12_apply, val_main_call0_v0_apply, val_main_v11_apply,
    val_main_v10_apply, val_main_cst_0_apply, val_main_call0_v1_apply, val_main_call0_cst_apply, val_main_call1_v1_apply,
    val_main_call1_v0_apply, val_main_cst_1_apply]
  rfl

/-- The scale of column `k`, spread over the rows. -/
theorem colscale_apply (x2 : (⟨S8x2048x2048, .f32⟩ : BufTy).Contents (Elt Ideal)) (b : Fin 8) (i k : Fin 2048) :
    val_main_v16 (F := Ideal) x2 (ix3 b i k) = val_main_v14 (F := Ideal) x2 (ix2 b k) := by
  rw [val_main_v16_apply, val_main_v15_apply]
  exact congrArg _ (funext fun a => Fin.ext (by match a with | ⟨0, _⟩ => rfl | ⟨1, _⟩ => rfl))

/-- The joined feature rows, lane by lane. -/
theorem feat_apply (x0 : (⟨S8x2048, .f32⟩ : BufTy).Contents (Elt Ideal)) (x1 : (⟨S8x131072, .f32⟩ : BufTy).Contents (Elt Ideal))
    (b : Fin 8) (k : Fin 2048) (f : Fin 65) :
    val_main_v20 (F := Ideal) x0 x1 (ix3 b k f)
      = feat (val_main_v18 (F := Ideal) x0) (val_main_v19 (F := Ideal) x1) b k (⟨f.val, by omega⟩ : Fin 128) := by
  unfold val_main_v20 feat
  have hf : f.val < 65 := f.isLt
  by_cases h0 : f.val = 0
  · rw [if_pos h0]
    exact concatenate_pair_apply_left (2 : Fin S8x2048x65.rank) _ _ concatenates_S8x2048x1_S8x2048x64_S8x2048x65_d2 (ix3 b k f) rfl
      (ix3 b k (0 : Fin 1)) (fun a => by
        match a with
        | ⟨0, _⟩ => rfl
        | ⟨1, _⟩ => rfl
        | ⟨2, _⟩ => show (0 : ℕ) = f.val; omega)
  · rw [if_neg h0, dif_pos hf]
    exact concatenate_pair_apply_right (2 : Fin S8x2048x65.rank) _ _ concatenates_S8x2048x1_S8x2048x64_S8x2048x65_d2 (ix3 b k f) rfl rfl
      (ix3 b k (⟨f.val - 1, by omega⟩ : Fin 64)) (fun a hne => by
        match a with
        | ⟨0, _⟩ => rfl
        | ⟨1, _⟩ => rfl
        | ⟨2, _⟩ => exact absurd rfl hne)
      (by show (f.val - 1) + 1 = f.val; omega)

/-- The reference's propagated features at an entry: the normalised matrix applied to the features. -/
theorem propagation_apply (x0 : (⟨S8x2048, .f32⟩ : BufTy).Contents (Elt Ideal)) (x1 : (⟨S8x131072, .f32⟩ : BufTy).Contents (Elt Ideal))
    (x2 : (⟨S8x2048x2048, .f32⟩ : BufTy).Contents (Elt Ideal)) (b : Fin 8) (i : Fin 2048) (f : Fin 65) :
    val_main_v21 (F := Ideal) x0 x1 x2 (ix3 b i f)
      = laplacianApplied x2 (val_main_v18 (F := Ideal) x0) (val_main_v19 (F := Ideal) x1) b i (⟨f.val, by omega⟩ : Fin 128) := by
  rw [val_main_v21_apply]
  unfold laplacianApplied
  refine Finset.sum_congr rfl fun k _ => ?_
  have e1 : lidx_main_v21 (ix3 b i f) k = ix3 b i k :=
    funext fun a => Fin.ext (by match a with | ⟨0, _⟩ => rfl | ⟨1, _⟩ => rfl | ⟨2, _⟩ => rfl)
  have e2 : ridx_main_v21 (ix3 b i f) k = ix3 b k f :=
    funext fun a => Fin.ext (by match a with | ⟨0, _⟩ => rfl | ⟨1, _⟩ => rfl | ⟨2, _⟩ => rfl)
  rw [e1, e2, val_main_v17_apply, adjI_apply, colscale_apply, scale_apply, degree_apply, feat_apply]
  rfl

end Cert.RefRead

end
-- ==== Proof.Finite.lean ====
/-
  Under the precondition every entry of the first three arguments is a real number.

  The precondition is the conjunction, over the five arguments, of "`|x| < +∞` at every entry" (each an `all`-reduction
  of a comparison). At the extended reals `|x| = max x (-x)` is `+∞` exactly at the two infinities, so the comparison
  holds exactly at the real entries. Only the node inputs, the hidden state and the adjacency are needed: the weights
  and biases enter both programs through the same final operations.
-/
import proofs.«108917_j52604759441743_2_alg».proof.Pre_finite_inputs
import Idealize.ShloMosaic.PureOps.Ideal
import Idealize.ShloMosaic.PureOps.Ideal.Laws
import Idealize.ShloMosaic.Lib.ReduceAll
import Idealize.ShloMosaic.Lib.ValueIdx
import proofs.«108917_j52604759441743_2_alg».proof.Proof.ScaleLaw

noncomputable section

namespace Cert.Finite

open Idealize.ShloMosaic Cert.Pre_finite_inputs Cert.FiniteReals

/-- An extended real whose absolute value is below `+∞` is a real number. -/
theorem isReal_of_abs_lt_top (x : EReal)
    (h : Ideal.cmp .olt (max x (-x)) (Ideal.ofBits .f32 0x7F800000#32) = 1#1) : IsReal x := by
  rw [Cert.ScaleLaw.ofBits_top] at h
  have hlt : max x (-x) < ⊤ := by
    by_contra hn
    simp [Ideal.cmp, hn] at h
  induction x using EReal.rec
  · simp at hlt
  · exact ⟨_, rfl⟩
  · simp at hlt

instance : Subsingleton S_.Idx := ⟨fun a b => funext fun d => d.elim0⟩

/-- The precondition gives real entries of the node inputs, the hidden state and the adjacency. -/
theorem isReal_of_pre [Facts] (x0 : FVec Ideal S8x2048 .f32) (x1 : FVec Ideal S8x131072 .f32)
    (x2 : FVec Ideal S8x2048x2048 .f32) (x3 : FVec Ideal S65x64 .f32) (x4 : FVec Ideal S64 .f32)
    (h : fn (F := Ideal) x0 x1 x2 x3 x4 = fun _ => 1#1) :
    (∀ i, IsReal (x0 i)) ∧ (∀ i, IsReal (x1 i)) ∧ (∀ i, IsReal (x2 i)) := by
  have h0 := congrFun h ValueIdx.ix0
  dsimp only [fn, fn_part1] at h0
  obtain ⟨h0123, _⟩ := IntOp.andi_eq_one.1 h0
  obtain ⟨h012, _⟩ := IntOp.andi_eq_one.1 h0123
  obtain ⟨h01, h2⟩ := IntOp.andi_eq_one.1 h012
  obtain ⟨h0', h1⟩ := IntOp.andi_eq_one.1 h01
  exact ⟨fun i => isReal_of_abs_lt_top _ (Host.reduce_andi_all _ _ _ _ _ h0' i),
    fun i => isReal_of_abs_lt_top _ (Host.reduce_andi_all _ _ _ _ _ h1 i),
    fun i => isReal_of_abs_lt_top _ (Host.reduce_andi_all _ _ _ _ _ h2 i)⟩

end Cert.Finite

end
-- ==== Proof.Bridge.lean ====
/-
  The two programs meet.

  The kernel's output array, cut to its first 65 lanes, is the reference's propagated features: entry `(b, i, f)` of the
  first is the specification's `propagated`, of the second its `laplacianApplied`, and on real entries these agree.
  After that both programs do the same things — reorder to `[65, 8, 2048]`, read as a `[16384, 65]` matrix, multiply
  with the weights, add the biases, read as `[8, 131072]` — so the kernel's result is the reference's last stage of the
  same arguments.
-/
import proofs.«108917_j52604759441743_2_alg».proof.Proof.KernelArray
import proofs.«108917_j52604759441743_2_alg».proof.Proof.RefRead
import proofs.«108917_j52604759441743_2_alg».proof.Proof.Finite
import proofs.«108917_j52604759441743_2_alg».proof.Proof.Gen.Pre_finite_inputs

set_option maxRecDepth 16384

noncomputable section

open scoped BigOperators

namespace Cert.Bridge

open Cert.KernelIdeal Cert.KernelIdeal.Gen Idealize.ShloMosaic Idealize.ShloMosaic.TcCoe Idealize.ShloMosaic.ValueIdx
open Idealize.SL.Sem Idealize.ShloMosaic.StableHlo
open Cert.Spec Cert.ScaleLaw Cert.FiniteReals Cert.KernelArray

/-- On real entries the first 65 lanes of the kernel's output array are the reference's propagated features. -/
theorem slice_eq (x0 : S8x2048.Idx → EReal) (x1 : S8x131072.Idx → EReal) (x2 : S8x2048x2048.Idx → EReal)
    (h0 : ∀ i, IsReal (x0 i)) (h1 : ∀ i, IsReal (x1 i)) (h2 : ∀ i, IsReal (x2 i)) :
    extractStridedSlice S8x2048x65 ![0, 0, 0]
        (outArray x2 (Cert.ReferenceIdeal.Read.val_main_v18 (F := Ideal) x0) (Cert.ReferenceIdeal.Read.val_main_v19 (F := Ideal) x1))
        slices_S8x2048x128_S8x2048x65_0_0_0
      = Cert.ReferenceIdeal.Read.val_main_v21 (F := Ideal) x0 x1 x2 := by
  funext j
  obtain ⟨b, i, f, rfl⟩ : ∃ (b : Fin 8) (i : Fin 2048) (f : Fin 65), j = ix3 b i f := ⟨j 0, j 1, j 2, eq_ix3 j⟩
  have hf : f.val < 65 := f.isLt
  rw [extractStridedSlice_apply ![0, 0, 0] _ slices_S8x2048x128_S8x2048x65_0_0_0 (ix3 b i f)
    (ix3 b i (⟨f.val, by omega⟩ : Fin 128)) (fun a => by
      match a with
      | ⟨0, _⟩ => show b.val = 0 + b.val; omega
      | ⟨1, _⟩ => show i.val = 0 + i.val; omega
      | ⟨2, _⟩ => show f.val = 0 + f.val; omega),
    Cert.RefRead.propagation_apply]
  show propagated (nb := 8) x2 _ _ b i _ = _
  refine (laplacianApplied_eq_propagated x2 _ _ h2 (fun e => ?_) (fun e => ?_) b i _).symm
  · rw [Cert.ReferenceIdeal.Read.val_main_v18_apply]; exact h0 _
  · rw [Cert.ReferenceIdeal.Read.val_main_v19_apply]; exact h1 _

variable (m : (ℓ : Loc nD τ sig) → Buf (Elt Ideal) ℓ)

/-- The kernel's result: under the precondition, the reference's last stage of the kernel's own arguments. -/
theorem result_eq (c : Dev nD)
    (hpre : Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    Pipeline.afterTail₀ cfgs (dats m) 0 (V0 m) [hostOps1] c main_v10
      = Cert.ReferenceIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  obtain ⟨h0, h1, h2⟩ := Cert.Finite.isReal_of_pre _ _ _ _ _ hpre
  have e2 : Pipeline.withArrays (cfgs 0).spec c (V0 m c) (fun w => (dats m 0 c).arrAt w (cfgs 0).N) (Proc.devRef .tc main_v2)
      = outArray (m ((c : Thread nD τ).loc main_arg2))
          (Cert.ReferenceIdeal.Read.val_main_v18 (F := Ideal) (m ((c : Thread nD τ).loc main_arg0)))
          (Cert.ReferenceIdeal.Read.val_main_v19 (F := Ideal) (m ((c : Thread nD τ).loc main_arg1))) := by
    refine (Pipeline.withArrays_arr spec0 launch0.win.arr_inj c _ _ 3).trans ?_
    rw [final, V_inputs, V_hidden, V_main_arg2]
    rfl
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans
      (V_main_arg3 m c)
  have e4 : Pipeline.withArrays (cfgs 0).spec c (V0 m c) (fun w => (dats m 0 c).arrAt w (cfgs 0).N) (Proc.devRef .tc main_arg4)
      = m ((c : Thread nD τ).loc main_arg4) :=
    (Pipeline.withArrays_of_ne _ c (V0 m c) _ main_arg4 (by exact (by decide : ∀ w, Pipeline.arrRef spec0 w ≠ main_arg4))).trans
      (V_main_arg4 m c)
  unfold Pipeline.afterTail₀
  show StableHlo.after hostOps1 _ (Proc.devRef .tc main_v10) = _
  after_results
  rw [e2, e3, e4, slice_eq _ _ _ h0 h1 h2]
  rfl

/-- The kernel's run, with its result named: every weakly fair execution ends with the result buffer at the
    reference's last stage of the arguments, and the arguments unchanged. -/
theorem run (ρ : Dev nD → PrngReg)
    (hpre : ∀ c : Dev nD, Cert.Pre_finite_inputs.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    θ_run defs (onTc (τ := τ) (main (F := Ideal))) ⟨m, fun _ => 0, ρ⟩ (fun r => ∀ c : Dev nD,
      r.2.mem ((c.tc : Thread nD τ).loc main_v10)
          = Cert.ReferenceIdeal.Read.val_main_v28 (F := Ideal) (m ((c : Thread nD τ).loc main_arg0)) (m ((c : Thread nD τ).loc main_arg1))
              (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v10 (Pipeline.mem_restRefs_of main_v10 (by decide) (by decide))).trans (result_eq m c (hpre c)),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      ((h c).1 0).trans (((dats m 0 c).arrAt_in 0 rfl _).trans ((A_eq m c 0).trans (V_main_arg2 m c))),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end Cert.Bridge

end
-- ==== Proof.lean ====
/-
  A graph-convolution step on 8 batches of 2048 nodes: for each batch the adjacency matrix `A` gets self loops and its
  columns are scaled by the inverse degree, the result multiplies the node features (the node's input joined with its 64
  hidden units), and the propagated features are reordered, multiplied with a `[65, 64]` weight matrix and shifted by
  the biases.

  The reference scales column `k` of `A + I` by `(s k ^ (-1/2))²`, `s k = Σ_l (A + I) k l` the degree, with the power put to
  zero where it is infinite. The kernel, one batch per grid point, scales the feature rows by `1 / s` where `s > 0` and
  by zero elsewhere, multiplies with `A` and adds the scaled rows (`(A + I) X' = A X' + X'`), on rows padded to 128
  lanes of which the first 65 are kept. On real inputs — the precondition — the degree is real, both scales are the
  reciprocal of a positive degree and zero for any other (the real power `s ^ (-1/2)` is zero at zero and, with
  `cos (-π/2) = 0`, at negative `s`), and distributivity joins the two contractions (Proof/ScaleLaw.lean, Proof/Spec.lean).
  Proof/RefRead.lean reads the reference's propagated features at an entry, Proof/KernelRead.lean the tile the kernel
  body stores, Proof/KernelArray.lean the kernel's output array after the run, Proof/Finite.lean the precondition, and
  Proof/Bridge.lean joins them: the last operations are the same in both programs, so the kernel's result is the
  reference's last stage of the same arguments.
-/
import proofs.«108917_j52604759441743_2_alg».proof.Defs
import proofs.«108917_j52604759441743_2_alg».proof.Proof.Gen.Kernel
import proofs.«108917_j52604759441743_2_alg».proof.Proof.Gen.Kernel.Skeleton
import proofs.«108917_j52604759441743_2_alg».proof.Proof.Gen.Kernel.Launch
import proofs.«108917_j52604759441743_2_alg».proof.Proof.Gen.Kernel.Points
import proofs.«108917_j52604759441743_2_alg».proof.Proof.Gen.Kernel.Frame
import proofs.«108917_j52604759441743_2_alg».proof.Proof.Gen.KernelIdeal
import proofs.«108917_j52604759441743_2_alg».proof.Proof.Gen.KernelIdeal.Skeleton
import proofs.«108917_j52604759441743_2_alg».proof.Proof.Gen.KernelIdeal.Launch
import proofs.«108917_j52604759441743_2_alg».proof.Proof.Gen.KernelIdeal.Points
import proofs.«108917_j52604759441743_2_alg».proof.Proof.Gen.KernelIdeal.Frame
import proofs.«108917_j52604759441743_2_alg».proof.Proof.Gen.ReferenceIdeal
import proofs.«108917_j52604759441743_2_alg».proof.Proof.Gen.Pre_finite_inputs
import proofs.«108917_j52604759441743_2_alg».proof.Proof.Gen.ReferenceIdeal.Run
import proofs.«108917_j52604759441743_2_alg».proof.Proof.Gen.ReferenceIdeal.Read
import proofs.«108917_j52604759441743_2_alg».proof.Proof.Bridge
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result at the reference's last stage of the (agreeing) arguments. -/
theorem algebraic : Cert.algebraic_KernelIdeal_ReferenceIdeal := by
  intro m ρ m' ρ' hpre hagree
  refine ⟨_, Cert.Bridge.run m ρ hpre, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v28_eq, (hagree c).1, (hagree c).2.1, (hagree c).2.2.1, (hagree c).2.2.2.1,
    (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
